-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000 : Shape := ⟨1, ![800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256 .f32) (main_arg7 : FVec F S256x128 .f32) (main_arg8 : FVec F S256x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_v33

def fn {F : FTy → Type} [FloatOps F] (main_arg0 : IVec S50000 32) (main_arg1 : IVec S2x800000 32) (main_arg2 : FVec F S800000 .f32) (main_arg3 : FVec F S50000x256 .f32) (main_arg4 : FVec F S256x256 .f32) (main_arg5 : FVec F S256x256 .f32) (main_arg6 : FVec F S256 .f32) (main_arg7 : FVec F S256x128 .f32) (main_arg8 : FVec F S256x128 .f32) (main_arg9 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x256 .f32 := Host.absf main_arg3
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_v13 main_v16
-- ==== Kernel.lean ====
abbrev S50000 : Shape := ⟨1, ![50000]⟩
abbrev S2x800000 : Shape := ⟨2, ![2, 800000]⟩
abbrev S800000 : Shape := ⟨1, ![800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S50000x1 : Shape := ⟨2, ![50000, 1]⟩
abbrev S800000x1 : Shape := ⟨2, ![800000, 1]⟩
abbrev S800000x256 : Shape := ⟨2, ![800000, 256]⟩
abbrev S2000x256 : Shape := ⟨2, ![2000, 256]⟩
abbrev S1x256 : Shape := ⟨2, ![1, 256]⟩
abbrev S50000x128 : Shape := ⟨2, ![50000, 128]⟩
abbrev S2000x128 : Shape := ⟨2, ![2000, 128]⟩
abbrev S1x128 : Shape := ⟨2, ![1, 128]⟩

abbrev nBuf : Space → Nat
  | .hbm => 75
  | .vmem => 18
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000, .f32⟩
  | .hbm, ⟨3, _⟩ => ⟨S50000x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x256, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S800000x1, .f32⟩
  | .hbm, ⟨45, _⟩ => ⟨S800000x256, .f32⟩
  | .hbm, ⟨46, _⟩ => ⟨S800000x256, .f32⟩
  | .hbm, ⟨47, _⟩ => ⟨S_, .f32⟩
  | .hbm, ⟨48, _⟩ => ⟨S50000x256, .f32⟩
  | .hbm, ⟨49, _⟩ => ⟨S800000x1, .i32⟩
  | .hbm, ⟨50, _⟩ => ⟨S50000x256, .f32⟩
  | .hbm, ⟨51, _⟩ => ⟨S50000x1, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S800000x1, .f32⟩
  | .hbm, ⟨65, _⟩ => ⟨S800000x256, .f32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x256_S50000x1_S50000x256_1_0_n_n_0_1_1256_wf : GatherDims.WF S50000x256 S50000x1 S50000x256 [1] [0] [] [0] [] 1 ![1, 256]
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v34) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S2x800000 : Shape := ⟨2, ![2, 800000]⟩
abbrev S800000 : Shape := ⟨1, ![800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S50000x1 : Shape := ⟨2, ![50000, 1]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000, .f32⟩
  | .hbm, ⟨3, _⟩ => ⟨S50000x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x256, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x256, .f32⟩
  | .hbm, ⟨32, _⟩ => ⟨S800000x1, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S800000x1, .f32⟩
  | .hbm, ⟨70, _⟩ => ⟨S800000x256, .f32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S_, .f32⟩
  | .hbm, ⟨77, _⟩ => ⟨S800000, .f32⟩
  | .hbm, ⟨78, _⟩ => ⟨S_, .f32⟩
  | .hbm, ⟨79, _⟩ => ⟨S50000, .f32⟩
  | .hbm, ⟨80, _⟩ => ⟨S800000x1, .i32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x256, .f32⟩
  | .hbm, ⟨87, _⟩ => ⟨S50000x256, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S50000x1_S50000x256_1_0_n_n_0_1_1256_wf : GatherDims.WF S50000x256 S50000x1 S50000x256 [1] [0] [] [0] [] 1 ![1, 256]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its RESULT named.

  The program is four segments: host operations, the first launch, host operations, the second launch. The
  frame proof data already name the buffers' contents at each segment boundary (`W0` at launch, `W1` after the
  first host stretch, `W2` after the first launch, `W3` after the second host stretch, `W4` at the end); the library's
  theorem for a run of segments hands back EVERY unscoped buffer at `W4` in the final state. Read at the result
  buffer that gives the result's contents, `W4` there; read at the argument buffers it gives the arguments unchanged.
-/
import proofs.«120815_j5866925326494_1_alg».proof.Proof.GenP.KernelIdeal.Frame

set_option maxRecDepth 16384

noncomputable section

namespace Cert.Sage.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    the arguments end as launched. -/
theorem run_named : θ_run defs (onTc (τ := τ) (main (F := F))) ⟨m, fun _ => 0, ρ⟩ (fun r => ∀ c : Dev nD,
      r.2.mem ((c.tc : Thread nD τ).loc main_v52) = W4 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v52 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Sage.KRun

end
-- ==== Proof.Dense.lean ====
/-
  One dense layer of a mean-aggregating graph convolution, as ONE function of whole arrays.

  For aggregated neighbour features `A` and node features `X` (both [M, 256]), two weight matrices `Wl`, `Wr`
  ([256, D]) and a bias `b` ([D]), the layer's entry at node `p` and output feature `f` is

      (Σ_k A(p,k) · Wl(k,f)  +  Σ_k X(p,k) · Wr(k,f))  +  b(f)

  on the extended reals, in exactly this association; the first layer clamps it below at 0. A block of rows of
  the layer depends on the same rows of `A` and `X` only (`dense_block`), which is what lets a row-tiled
  computation be read as rows of the whole-array function.

  The one law that joins "multiply by the reciprocal of the clamped in-degree" to "divide by the clamped
  in-degree" is `mul_recip_eq_div`: a number that is at least 1 is not 0, and off 0 the quotient IS the product
  with the inverse, at every extended real (no finiteness is used).
-/
import Idealize.ShloMosaic.Lib.ValueIdx
import Idealize.ShloMosaic.PureOps.Ideal.Laws

noncomputable section

namespace Cert.Sage

open Idealize.ShloMosaic Idealize.ShloMosaic.ValueIdx

variable {M M' D : Nat}

/-- The layer before its activation: neighbour part plus self part, then the bias. -/
def dense (A X : (⟨2, ![M, 256]⟩ : Shape).Idx → EReal) (Wl Wr : (⟨2, ![256, D]⟩ : Shape).Idx → EReal)
    (b : (⟨1, ![D]⟩ : Shape).Idx → EReal) : (⟨2, ![M, D]⟩ : Shape).Idx → EReal :=
  fun i => (∑ k : Fin 256, A (ix2 (i 0) k) * Wl (ix2 k (i 1)) + ∑ k : Fin 256, X (ix2 (i 0) k) * Wr (ix2 k (i 1)))
    + b (ix1 (i 1))

/-- The layer with its activation: every entry clamped below at 0. -/
def denseRelu (A X : (⟨2, ![M, 256]⟩ : Shape).Idx → EReal) (Wl Wr : (⟨2, ![256, D]⟩ : Shape).Idx → EReal)
    (b : (⟨1, ![D]⟩ : Shape).Idx → EReal) : (⟨2, ![M, D]⟩ : Shape).Idx → EReal :=
  fun i => max (dense A X Wl Wr b i) 0

theorem dense_ix2 (A X : (⟨2, ![M, 256]⟩ : Shape).Idx → EReal) (Wl Wr : (⟨2, ![256, D]⟩ : Shape).Idx → EReal)
    (b : (⟨1, ![D]⟩ : Shape).Idx → EReal) (p : Fin M) (f : Fin D) :
    dense A X Wl Wr b (ix2 p f)
      = (∑ k : Fin 256, A (ix2 p k) * Wl (ix2 k f) + ∑ k : Fin 256, X (ix2 p k) * Wr (ix2 k f)) + b (ix1 f) := rfl

/-- A BLOCK OF ROWS. Let `e`, `e0`, `e1` place a block's entries in the whole arrays: each shifts the row by the same `r` and
    keeps the column. If the block inputs `A'`, `X'` are the whole inputs `A`, `X` read through `e0`, `e1`, then the layer of the
    block is the layer of the whole arrays read through `e`: a row of the result reads the same row of each input. -/
theorem dense_block (A X : (⟨2, ![M, 256]⟩ : Shape).Idx → EReal) (A' X' : (⟨2, ![M', 256]⟩ : Shape).Idx → EReal)
    (Wl Wr : (⟨2, ![256, D]⟩ : Shape).Idx → EReal) (b : (⟨1, ![D]⟩ : Shape).Idx → EReal)
    (e : (⟨2, ![M', D]⟩ : Shape).Idx → (⟨2, ![M, D]⟩ : Shape).Idx)
    (e0 e1 : (⟨2, ![M', 256]⟩ : Shape).Idx → (⟨2, ![M, 256]⟩ : Shape).Idx) (r : Nat)
    (hA : ∀ y, A' y = A (e0 y)) (hX : ∀ y, X' y = X (e1 y))
    (he : ∀ y, (e y 0).val = r + (y 0).val ∧ (e y 1).val = (y 1).val)
    (he0 : ∀ y, (e0 y 0).val = r + (y 0).val ∧ (e0 y 1).val = (y 1).val)
    (he1 : ∀ y, (e1 y 0).val = r + (y 0).val ∧ (e1 y 1).val = (y 1).val)
    (j : (⟨2, ![M', D]⟩ : Shape).Idx) : dense A' X' Wl Wr b j = dense A X Wl Wr b (e j) := by
  have h0 : ∀ k : Fin 256, e0 (ix2 (j 0) k) = ix2 (e j 0) k := fun k => by
    funext a; apply Fin.ext
    match a with
    | ⟨0, _⟩ => exact ((he0 _).1).trans ((he j).1).symm
    | ⟨1, _⟩ => exact (he0 _).2
  have h1 : ∀ k : Fin 256, e1 (ix2 (j 0) k) = ix2 (e j 0) k := fun k => by
    funext a; apply Fin.ext
    match a with
    | ⟨0, _⟩ => exact ((he1 _).1).trans ((he j).1).symm
    | ⟨1, _⟩ => exact (he1 _).2
  have hc : e j 1 = j 1 := Fin.ext (he j).2
  unfold dense
  simp only [hA, hX, h0, h1, hc]
  rfl

/-- The same with the activation. -/
theorem denseRelu_block (A X : (⟨2, ![M, 256]⟩ : Shape).Idx → EReal) (A' X' : (⟨2, ![M', 256]⟩ : Shape).Idx → EReal)
    (Wl Wr : (⟨2, ![256, D]⟩ : Shape).Idx → EReal) (b : (⟨1, ![D]⟩ : Shape).Idx → EReal)
    (e : (⟨2, ![M', D]⟩ : Shape).Idx → (⟨2, ![M, D]⟩ : Shape).Idx)
    (e0 e1 : (⟨2, ![M', 256]⟩ : Shape).Idx → (⟨2, ![M, 256]⟩ : Shape).Idx) (r : Nat)
    (hA : ∀ y, A' y = A (e0 y)) (hX : ∀ y, X' y = X (e1 y))
    (he : ∀ y, (e y 0).val = r + (y 0).val ∧ (e y 1).val = (y 1).val)
    (he0 : ∀ y, (e0 y 0).val = r + (y 0).val ∧ (e0 y 1).val = (y 1).val)
    (he1 : ∀ y, (e1 y 0).val = r + (y 0).val ∧ (e1 y 1).val = (y 1).val)
    (j : (⟨2, ![M', D]⟩ : Shape).Idx) : denseRelu A' X' Wl Wr b j = denseRelu A X Wl Wr b (e j) := by
  show max (dense A' X' Wl Wr b j) 0 = max (dense A X Wl Wr b (e j)) 0
  rw [dense_block A X A' X' Wl Wr b e e0 e1 r hA hX he he0 he1 j]

/-- Off zero the exact quotient is the product with the inverse; a divisor that is at least 1 is off zero. So scaling by
    the reciprocal `1 / c` and dividing by `c` are the same function of `x`, at every extended real `x`. -/
theorem mul_recip_eq_div (x c : EReal) (hc : 1 ≤ c) : x * Ideal.div 1 c = Ideal.div x c := by
  have h0 : c ≠ 0 := fun h => absurd (h ▸ hc) (not_le.mpr zero_lt_one)
  unfold Ideal.div
  rw [if_neg h0, if_neg h0, one_mul]

end Cert.Sage

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelPayload.lean ====
/-
  What each kernel body computes from the blocks it loads, as the dense layer of Proof/Dense.lean.

  Both bodies load a block of 2000 rows of the aggregated features and of the node features, the two weight
  matrices and the bias, round the four matrices to a narrower float format (the identity on the extended
  reals), multiply on the matrix unit into zero accumulators (each product entry is then the plain sum over the
  256 contracted coordinates), add the two products, add the bias along rows, and — the first layer only — take
  the maximum with 0. Entry by entry that is `dense` (second layer) or `denseRelu` (first layer) of the loaded
  blocks.
-/
import proofs.«120815_j5866925326494_1_alg».proof.Proof.Gen.KernelIdeal.Skeleton
import proofs.«120815_j5866925326494_1_alg».proof.Proof.Dense
import proofs.«120815_j5866925326494_1_alg».proof.Proof.LibDotRow
import Idealize.ShloMosaic.Lib.Pipeline.Value
import Idealize.ShloMosaic.Lib.ValueLayout

noncomputable section

namespace Cert.Sage.Payload

open Cert.KernelIdeal Cert.KernelIdeal.Gen Cert.Sage
open Idealize.ShloMosaic Idealize.ShloMosaic.ValueIdx

/-! ## The two matrix products read at an entry -/

theorem lhs0_256 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem rhs1_256 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

theorem lhs0_128 (j : S2000x128.Idx) (k : dot_S2000x256_S256x128_S2000x128_1_0_0_1_n_n.contr.Idx) :
    (dot_S2000x256_S256x128_S2000x128_1_0_0_1_n_n.lhsIdx j k 0).val = (j 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem rhs1_128 (j : S2000x128.Idx) (k : dot_S2000x256_S256x128_S2000x128_1_0_0_1_n_n.contr.Idx) :
    (dot_S2000x256_S256x128_S2000x128_1_0_0_1_n_n.rhsIdx j k 1).val = (j 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- A [2000, 256] by [256, 256] product on the matrix unit, into a zero accumulator, at row `p`, column `f`. -/
theorem mm256_apply {φ₁ φ₂ : FTy} (L : FVec Ideal S2000x256 φ₁) (R : FVec Ideal S256x256 φ₂) (p : Fin 2000) (f : Fin 256) :
    matmul dot_S2000x256_S256x256_S2000x256_1_0_0_1_n_n none L R (constant S2000x256 .f32 0x00000000#32) (ix2 p f)
      = ∑ k : Fin 256, L (ix2 p k) * R (ix2 k f) :=
  (Ideal.matmul_constant_zero_apply dot_S2000x256_S256x256_S2000x256_1_0_0_1_n_n none L R (ix2 p f)).trans
    (DotRow.sum_contr dot_S2000x256_S256x256_S2000x256_1_0_0_1_n_n rfl rfl rfl rfl lhs0_256 rhs1_256 L R p f)

/-- A [2000, 256] by [256, 128] product on the matrix unit, into a zero accumulator, at row `p`, column `f`. -/
theorem mm128_apply {φ₁ φ₂ : FTy} (L : FVec Ideal S2000x256 φ₁) (R : FVec Ideal S256x128 φ₂) (p : Fin 2000) (f : Fin 128) :
    matmul dot_S2000x256_S256x128_S2000x128_1_0_0_1_n_n none L R (constant S2000x128 .f32 0x00000000#32) (ix2 p f)
      = ∑ k : Fin 256, L (ix2 p k) * R (ix2 k f) :=
  (Ideal.matmul_constant_zero_apply dot_S2000x256_S256x128_S2000x128_1_0_0_1_n_n none L R (ix2 p f)).trans
    (DotRow.sum_contr dot_S2000x256_S256x128_S2000x128_1_0_0_1_n_n rfl rfl rfl rfl lhs0_128 rhs1_128 L R p f)

/-! ## The bias, laid along rows -/

theorem bias256_apply (v : FVec Ideal S256 .f32) (p : Fin 2000) (f : Fin 256) :
    broadcastTo S2000x256 (shapeCast S1x256 v shapeCasts_S256_S1x256) broadcasts_S1x256_S2000x256 (ix2 p f) = v (ix1 f) :=
  (broadcastTo_1b_ab_apply _ broadcasts_S1x256_S2000x256 p f).trans (shapeCast_a_1a_apply v shapeCasts_S256_S1x256 0 f)

theorem bias128_apply (v : FVec Ideal S128 .f32) (p : Fin 2000) (f : Fin 128) :
    broadcastTo S2000x128 (shapeCast S1x128 v shapeCasts_S128_S1x128) broadcasts_S1x128_S2000x128 (ix2 p f) = v (ix1 f) :=
  (broadcastTo_1b_ab_apply _ broadcasts_S1x128_S2000x128 p f).trans (shapeCast_a_1a_apply v shapeCasts_S128_S1x128 0 f)

/-! ## The stored values -/

/-- The first layer's stored block: the activated dense layer of the loaded blocks. -/
theorem pay0_eq (v0 v3 : Vec Ideal S2000x256 .f32) (v6 v8 : Vec Ideal S256x256 .f32) (v13 : Vec Ideal S256 .f32) :
    k0_pay1 (F := Ideal) v0 v3 v6 v8 v13 = denseRelu v0 v3 v6 v8 v13 := by
  funext j
  obtain ⟨p, f, rfl⟩ : ∃ (p : Fin 2000) (f : Fin 256), j = ix2 p f := ⟨j 0, j 1, eq_ix2 j⟩
  unfold k0_pay1
  simp only [shapeCast_self]
  show max ((matmul (F := Ideal) dot_S2000x256_S256x256_S2000x256_1_0_0_1_n_n none (truncf .bf16 v0 bitsLt_bf16_f32) (truncf .bf16 v6 bitsLt_bf16_f32) (constant S2000x256 .f32 0x00000000#32) (ix2 p f)
      + matmul (F := Ideal) dot_S2000x256_S256x256_S2000x256_1_0_0_1_n_n none (truncf .bf16 v3 bitsLt_bf16_f32) (truncf .bf16 v8 bitsLt_bf16_f32) (constant S2000x256 .f32 0x00000000#32) (ix2 p f))
      + broadcastTo S2000x256 (shapeCast S1x256 v13 shapeCasts_S256_S1x256) broadcasts_S1x256_S2000x256 (ix2 p f))
      (Ideal.ofBits .f32 0x00000000#32) = _
  rw [mm256_apply, mm256_apply, bias256_apply, Ideal.ofBits_zero_f32]
  rfl

/-- The second layer's stored block: the dense layer of the loaded blocks. -/
theorem pay1_eq (v0 v3 : Vec Ideal S2000x256 .f32) (v6 v8 : Vec Ideal S256x128 .f32) (v13 : Vec Ideal S128 .f32) :
    k1_pay1 (F := Ideal) v0 v3 v6 v8 v13 = dense v0 v3 v6 v8 v13 := by
  funext j
  obtain ⟨p, f, rfl⟩ : ∃ (p : Fin 2000) (f : Fin 128), j = ix2 p f := ⟨j 0, j 1, eq_ix2 j⟩
  unfold k1_pay1
  simp only [shapeCast_self]
  show (matmul (F := Ideal) dot_S2000x256_S256x128_S2000x128_1_0_0_1_n_n none (truncf .bf16 v0 bitsLt_bf16_f32) (truncf .bf16 v6 bitsLt_bf16_f32) (constant S2000x128 .f32 0x00000000#32) (ix2 p f)
      + matmul (F := Ideal) dot_S2000x256_S256x128_S2000x128_1_0_0_1_n_n none (truncf .bf16 v3 bitsLt_bf16_f32) (truncf .bf16 v8 bitsLt_bf16_f32) (constant S2000x128 .f32 0x00000000#32) (ix2 p f))
      + broadcastTo S2000x128 (shapeCast S1x128 v13 shapeCasts_S128_S1x128) broadcasts_S1x128_S2000x128 (ix2 p f) = _
  rw [mm128_apply, mm128_apply, bias128_apply]
  rfl

end Cert.Sage.Payload

end
-- ==== Proof.RegionValue.lean ====
/-
  What each of the two launches leaves in its output array, as ONE function of the arrays the launch finds.

  Each launch walks 25 grid points; at point `t` it is handed rows 2000·t … 2000·t + 1999 of the aggregated
  features and of the node features (all 256 columns), the two weight matrices and the bias whole, and writes back
  rows 2000·t … 2000·t + 1999 of its result. By Proof/KernelPayload.lean the block written back is the dense layer
  of the blocks handed in, and a row of the dense layer reads that row of its inputs only (Proof/Dense.lean,
  `dense_block`), so the block written back at `t` is block `t` of the dense layer of the WHOLE arrays. The 25
  row blocks tile the 50000 rows (row `r` lies in block `r / 2000`), hence the output array ends holding the
  dense layer of the whole input arrays — with the activation after the first launch, without after the second.
  All of this is stated for arbitrary contents `V` of the buffers at the launch's entry.
-/
import proofs.«120815_j5866925326494_1_alg».proof.Proof.GenP.KernelIdeal.Frame
import proofs.«120815_j5866925326494_1_alg».proof.Proof.KernelPayload
import Idealize.ShloMosaic.Lib.Pipeline.Value

set_option maxRecDepth 16384

noncomputable section

namespace Cert.Sage.Region

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first launch -/

/-- The printed index maps over the grid: the two row-tiled inputs and the output sit at block row `t`, block
    column 0; the weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every block row is some point's. -/
theorem onto0 : ∀ q : Fin 25, ∃ t : Fin cfg0.N, t.val = q.val :=
  (by decide +kernel : ∀ q : Fin 25, ∃ t : Fin grid0.N, t.val = q.val)

/-- WHAT POINT `t` WRITES BACK is block `t` of the activated dense layer of the arrays as the launch finds them. -/
theorem flushed0_eq (c : Dev nD) (t : Fin cfg0.N) :
    (dat0 V c).flushed 5 t = ((cfg0.win 5).blk t).view.read (Elt Ideal)
      (denseRelu (V c main_v34) (V c main_v10) (V c main_arg4) (V c main_arg5) (V c main_arg6)) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  rw [Payload.pay0_eq]
  obtain ⟨a0, a1, b0, b1, c0, c1, d0, d1, e0, f0, f1⟩ := idx0 t
  have hW2 : iblk0 V c 2 t = V c main_arg4 := by
    funext y
    show V c main_arg4 (((cfg0.win 2).blk t).view.emb y) = V c main_arg4 y
    refine congrArg (V c main_arg4) (funext fun a => Fin.ext ?_)
    match a with
    | ⟨0, _⟩ => show win0_2.index t (0 : Fin 2) * 256 + 1 * (y 0).val = (y 0).val; omega
    | ⟨1, _⟩ => show win0_2.index t (1 : Fin 2) * 256 + 1 * (y 1).val = (y 1).val; omega
  have hW3 : iblk0 V c 3 t = V c main_arg5 := by
    funext y
    show V c main_arg5 (((cfg0.win 3).blk t).view.emb y) = V c main_arg5 y
    refine congrArg (V c main_arg5) (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have hW4 : iblk0 V c 4 t = V c main_arg6 := by
    funext y
    show V c main_arg6 (((cfg0.win 4).blk t).view.emb y) = V c main_arg6 y
    refine congrArg (V c main_arg6) (funext fun a => Fin.ext ?_)
    match a with
    | ⟨0, _⟩ => show win0_4.index t (0 : Fin 1) * 256 + 1 * (y 0).val = (y 0).val; omega
  rw [hW2, hW3, hW4]
  funext j
  exact denseRelu_block (M := 50000) (M' := 2000) (D := 256) (V c main_v34) (V c main_v10) (iblk0 V c 0 t) (iblk0 V c 1 t)
    (V c main_arg4) (V c main_arg5) (V c main_arg6)
    ((cfg0.win 5).blk t).view.emb ((cfg0.win 0).blk t).view.emb ((cfg0.win 1).blk t).view.emb (t.val * 2000)
    (fun _ => rfl) (fun _ => rfl)
    (fun y => ⟨by show win0_5.index t (0 : Fin 2) * 2000 + 1 * (y 0).val = t.val * 2000 + (y 0).val; omega,
               by show win0_5.index t (1 : Fin 2) * 256 + 1 * (y 1).val = (y 1).val; omega⟩)
    (fun y => ⟨by show win0_0.index t (0 : Fin 2) * 2000 + 1 * (y 0).val = t.val * 2000 + (y 0).val; omega,
               by show win0_0.index t (1 : Fin 2) * 256 + 1 * (y 1).val = (y 1).val; omega⟩)
    (fun y => ⟨by show win0_1.index t (0 : Fin 2) * 2000 + 1 * (y 0).val = t.val * 2000 + (y 0).val; omega,
               by show win0_1.index t (1 : Fin 2) * 256 + 1 * (y 1).val = (y 1).val; omega⟩)
    j

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v35).slice (win0_5.rect t)).set ↔ _
  rw [View.set_slice_whole, Rect.mem_set_unit]
  exact Iff.rfl

/-- The 25 row blocks cover the array: row `r` lies in the block of point `r / 2000`. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := onto0 ⟨(i 0).val / 2000, by omega⟩
  have ht' : t.val = (i 0).val / 2000 := ht
  obtain ⟨a0, a1, b0, b1, c0, c1, d0, d1, e0, f0, f1⟩ := idx0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE FIRST LAUNCH'S OUTPUT ARRAY after the launch: the activated dense layer of the arrays it found. -/
theorem final0 (c : Dev nD) :
    (dat0 V c).arrAt 5 cfg0.N = denseRelu (V c main_v34) (V c main_v10) (V c main_arg4) (V c main_arg5) (V c main_arg6) :=
  (dat0 V c).arrAt_eq_of_cover 5 _ (fun t _ => flushed0_eq V c t) cover0

/-! ## The second launch -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem onto1 : ∀ q : Fin 25, ∃ t : Fin cfg1.N, t.val = q.val :=
  (by decide +kernel : ∀ q : Fin 25, ∃ t : Fin grid1.N, t.val = q.val)

/-- WHAT POINT `t` WRITES BACK is block `t` of the dense layer of the arrays as the launch finds them. -/
theorem flushed1_eq (c : Dev nD) (t : Fin cfg1.N) :
    (dat1 V c).flushed 5 t = ((cfg1.win 5).blk t).view.read (Elt Ideal)
      (dense (V c main_v51) (V c main_v35) (V c main_arg7) (V c main_arg8) (V c main_arg9)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S128) hz1]
  rw [Payload.pay1_eq]
  obtain ⟨a0, a1, b0, b1, c0, c1, d0, d1, e0, f0, f1⟩ := idx1 t
  have hW2 : iblk1 V c 2 t = V c main_arg7 := by
    funext y
    show V c main_arg7 (((cfg1.win 2).blk t).view.emb y) = V c main_arg7 y
    refine congrArg (V c main_arg7) (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  have hW3 : iblk1 V c 3 t = V c main_arg8 := by
    funext y
    show V c main_arg8 (((cfg1.win 3).blk t).view.emb y) = V c main_arg8 y
    refine congrArg (V c main_arg8) (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  have hW4 : iblk1 V c 4 t = V c main_arg9 := by
    funext y
    show V c main_arg9 (((cfg1.win 4).blk t).view.emb y) = V c main_arg9 y
    refine congrArg (V c main_arg9) (funext fun a => Fin.ext ?_)
    match a with
    | ⟨0, _⟩ => show win1_4.index t (0 : Fin 1) * 128 + 1 * (y 0).val = (y 0).val; omega
  rw [hW2, hW3, hW4]
  funext j
  exact dense_block (M := 50000) (M' := 2000) (D := 128) (V c main_v51) (V c main_v35) (iblk1 V c 0 t) (iblk1 V c 1 t)
    (V c main_arg7) (V c main_arg8) (V c main_arg9)
    ((cfg1.win 5).blk t).view.emb ((cfg1.win 0).blk t).view.emb ((cfg1.win 1).blk t).view.emb (t.val * 2000)
    (fun _ => rfl) (fun _ => rfl)
    (fun y => ⟨by show win1_5.index t (0 : Fin 2) * 2000 + 1 * (y 0).val = t.val * 2000 + (y 0).val; omega,
               by show win1_5.index t (1 : Fin 2) * 128 + 1 * (y 1).val = (y 1).val; omega⟩)
    (fun y => ⟨by show win1_0.index t (0 : Fin 2) * 2000 + 1 * (y 0).val = t.val * 2000 + (y 0).val; omega,
               by show win1_0.index t (1 : Fin 2) * 256 + 1 * (y 1).val = (y 1).val; omega⟩)
    (fun y => ⟨by show win1_1.index t (0 : Fin 2) * 2000 + 1 * (y 0).val = t.val * 2000 + (y 0).val; omega,
               by show win1_1.index t (1 : Fin 2) * 256 + 1 * (y 1).val = (y 1).val; omega⟩)
    j

theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v52).slice (win1_5.rect t)).set ↔ _
  rw [View.set_slice_whole, Rect.mem_set_unit]
  exact Iff.rfl

theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1 ⟨(i 0).val / 2000, by omega⟩
  have ht' : t.val = (i 0).val / 2000 := ht
  obtain ⟨a0, a1, b0, b1, c0, c1, d0, d1, e0, f0, f1⟩ := idx1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE SECOND LAUNCH'S OUTPUT ARRAY after the launch: the dense layer of the arrays it found. -/
theorem final1 (c : Dev nD) :
    (dat1 V c).arrAt 5 cfg1.N = dense (V c main_v51) (V c main_v35) (V c main_arg7) (V c main_arg8) (V c main_arg9) :=
  (dat1 V c).arrAt_eq_of_cover 5 _ (fun t _ => flushed1_eq V c t) cover1

end Cert.Sage.Region

end
-- ==== Proof.KernelValue.lean ====
/-
  The idealized kernel's result as ONE term of its arguments.

  Host side, in the program's own operations: `src` and `dst` are the two rows of the edge list; `feat` the node
  features looked up by node id; `degInv` the per-node factor 1 / max(in-degree, 1), the in-degree being a
  scatter-add of ones at `dst`; `agg H` gathers rows of `H` at `src`, scales each by its edge weight, scatter-adds
  them at `dst` and multiplies node `p`'s sum by `degInv p`. The first launch turns `agg feat` and `feat` into the
  activated dense layer `layer1` (Proof/RegionValue.lean); the second host stretch forms `agg layer1`; the second launch
  turns that and `layer1` into the dense layer that is the result. The boundary contents `W1 … W4` of the frame proof
  data are read back stretch by stretch: a buffer a stretch does not write keeps what it held, a launch changes its
  own output array only.
-/
import proofs.«120815_j5866925326494_1_alg».proof.Proof.GenP.KernelIdeal.Frame
import proofs.«120815_j5866925326494_1_alg».proof.Proof.RegionValue
import Idealize.ShloMosaic.Lib.StableHlo.Run

set_option maxRecDepth 16384

noncomputable section

namespace Cert.Sage.KValue

open Cert.KernelIdeal Cert.KernelIdeal.Gen Cert.KernelIdeal.GenP Cert.Sage
open Idealize.ShloMosaic Idealize.ShloMosaic.TcCoe Idealize.SL.Sem Idealize.ShloMosaic.StableHlo

/-! ## The host stages -/

/-- Row 0 of the edge list: each edge's source node. -/
def src (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- Row 1 of the edge list: each edge's destination node. -/
def dst (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The node features: the embedding table's rows looked up by node id (a negative id counted from the end). -/
def feat (x0 : (⟨S50000, .i32⟩ : BufTy).Contents (Elt Ideal)) (x3 : (⟨S50000x256, .f32⟩ : BufTy).Contents (Elt Ideal)) :
    (⟨S50000x256, .f32⟩ : BufTy).Contents (Elt Ideal) :=
  Host.gather gather_S50000x256_S50000x1_S50000x256_1_0_n_n_0_1_1256 x3
    (broadcastInDim S50000x1 ![0] bcast_S50000_S50000x1_0
      (select (cmpi .slt x0 (broadcastInDim S50000 ![] bcast_S_S50000 (constantI S_ 32 0#32)))
        (addi x0 (broadcastInDim S50000 ![] bcast_S_S50000 (constantI S_ 32 50000#32))) x0))

/-- The in-degree of every node: ones scatter-added at the destinations. -/
def deg (d : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The per-node factor 1 / max(in-degree, 1). -/
def degInv (d : (⟨S800000, .i32⟩ : BufTy).Contents (Elt Ideal)) : (⟨S50000, .f32⟩ : BufTy).Contents (Elt Ideal) :=
  Host.divf (broadcastInDim S50000 ![] bcast_S_S50000 (constant (F := Ideal) S_ .f32 0x3F800000#32))
    (maximumf (deg d) (broadcastInDim S50000 ![] bcast_S_S50000 (constant (F := Ideal) S_ .f32 0x3F800000#32)))

/-- The weighted messages summed at their destinations: rows of `H` gathered at the sources, each scaled by its edge's
    weight, scatter-added at the destinations. -/
def msgSum (H : (⟨S50000x256, .f32⟩ : BufTy).Contents (Elt Ideal)) (s d : (⟨S800000, .i32⟩ : BufTy).Contents (Elt Ideal))
    (w : (⟨S800000, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (mulf (F := Ideal) (Host.gather gather_S50000x256_S800000x1_S800000x256_1_0_n_n_0_1_1256 H
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)))
      (broadcastInDim S800000x256 ![0, 1] bcast_S800000x1_S800000x256_0_1 (broadcastInDim S800000x1 ![0] bcast_S800000_S800000x1_0 w)))

/-- Mean aggregation as this program spells it: the summed messages times the per-node factor `g`, laid along features. -/
def agg (H : (⟨S50000x256, .f32⟩ : BufTy).Contents (Elt Ideal)) (s d : (⟨S800000, .i32⟩ : BufTy).Contents (Elt Ideal))
    (w : (⟨S800000, .f32⟩ : BufTy).Contents (Elt Ideal)) (g : (⟨S50000, .f32⟩ : BufTy).Contents (Elt Ideal)) :
    (⟨S50000x256, .f32⟩ : BufTy).Contents (Elt Ideal) :=
  mulf (F := Ideal) (φ := .f32) (msgSum H s d w)
    (broadcastInDim S50000x256 ![0, 1] bcast_S50000x1_S50000x256_0_1 (broadcastInDim S50000x1 ![0] bcast_S50000_S50000x1_0 g))

/-- The first layer's output, as a function of the arguments. -/
def layer1 (x0 : (⟨S50000, .i32⟩ : BufTy).Contents (Elt Ideal)) (x1 : (⟨S2x800000, .i32⟩ : BufTy).Contents (Elt Ideal))
    (x2 : (⟨S800000, .f32⟩ : BufTy).Contents (Elt Ideal)) (x3 : (⟨S50000x256, .f32⟩ : BufTy).Contents (Elt Ideal))
    (x4 x5 : (⟨S256x256, .f32⟩ : BufTy).Contents (Elt Ideal)) (x6 : (⟨S256, .f32⟩ : BufTy).Contents (Elt Ideal)) :
    (⟨S50000x256, .f32⟩ : BufTy).Contents (Elt Ideal) :=
  denseRelu (agg (feat x0 x3) (src x1) (dst x1) x2 (degInv (dst x1))) (feat x0 x3) x4 x5 x6

/-- The program's result, as a function of the arguments. -/
def out (x0 : (⟨S50000, .i32⟩ : BufTy).Contents (Elt Ideal)) (x1 : (⟨S2x800000, .i32⟩ : BufTy).Contents (Elt Ideal))
    (x2 : (⟨S800000, .f32⟩ : BufTy).Contents (Elt Ideal)) (x3 : (⟨S50000x256, .f32⟩ : BufTy).Contents (Elt Ideal))
    (x4 x5 : (⟨S256x256, .f32⟩ : BufTy).Contents (Elt Ideal)) (x6 : (⟨S256, .f32⟩ : BufTy).Contents (Elt Ideal))
    (x7 x8 : (⟨S256x128, .f32⟩ : BufTy).Contents (Elt Ideal)) (x9 : (⟨S128, .f32⟩ : BufTy).Contents (Elt Ideal)) :
    (⟨S50000x128, .f32⟩ : BufTy).Contents (Elt Ideal) :=
  dense (agg (layer1 x0 x1 x2 x3 x4 x5 x6) (src x1) (dst x1) x2 (degInv (dst x1))) (layer1 x0 x1 x2 x3 x4 x5 x6) x7 x8 x9

/-! ## The boundary contents, read back -/

variable (m : (ℓ : Loc nD τ sig) → Buf (Elt Ideal) ℓ) (ρ : Dev nD → PrngReg)

/-! ### After the first host stretch -/

theorem W1_v1 (c : Dev nD) : W1 m ρ c (Proc.devRef .tc main_v1) = src (m ((c : Thread nD τ).loc main_arg1)) := by
  show StableHlo.after hostOps0 (W0 m ρ c) (Proc.devRef .tc main_v1) = _
  simp only [hostOps0]
  after_results_simp
  rfl

theorem W1_v3 (c : Dev nD) : W1 m ρ c (Proc.devRef .tc main_v3) = dst (m ((c : Thread nD τ).loc main_arg1)) := by
  show StableHlo.after hostOps0 (W0 m ρ c) (Proc.devRef .tc main_v3) = _
  simp only [hostOps0]
  after_results_simp
  rfl

theorem W1_v10 (c : Dev nD) : W1 m ρ c (Proc.devRef .tc main_v10)
    = feat (m ((c : Thread nD τ).loc main_arg0)) (m ((c : Thread nD τ).loc main_arg3)) := by
  show StableHlo.after hostOps0 (W0 m ρ c) (Proc.devRef .tc main_v10) = _
  simp only [hostOps0]
  after_results_simp
  rfl

theorem W1_v18 (c : Dev nD) : W1 m ρ c (Proc.devRef .tc main_v18) = degInv (dst (m ((c : Thread nD τ).loc main_arg1))) := by
  show StableHlo.after hostOps0 (W0 m ρ c) (Proc.devRef .tc main_v18) = _
  simp only [hostOps0]
  after_results_simp
  rfl

theorem W1_v34 (c : Dev nD) : W1 m ρ c (Proc.devRef .tc main_v34)
    = agg (feat (m ((c : Thread nD τ).loc main_arg0)) (m ((c : Thread nD τ).loc main_arg3)))
        (src (m ((c : Thread nD τ).loc main_arg1))) (dst (m ((c : Thread nD τ).loc main_arg1)))
        (m ((c : Thread nD τ).loc main_arg2)) (degInv (dst (m ((c : Thread nD τ).loc main_arg1)))) := by
  show StableHlo.after hostOps0 (W0 m ρ c) (Proc.devRef .tc main_v34) = _
  simp only [hostOps0]
  after_results_simp
  rfl

theorem W1_arg2 (c : Dev nD) : W1 m ρ c (Proc.devRef .tc main_arg2) = m ((c : Thread nD τ).loc main_arg2) := by
  show StableHlo.after hostOps0 (W0 m ρ c) (Proc.devRef .tc main_arg2) = _
  simp only [hostOps0]
  after_results_simp
theorem W1_arg4 (c : Dev nD) : W1 m ρ c (Proc.devRef .tc main_arg4) = m ((c : Thread nD τ).loc main_arg4) := by
  show StableHlo.after hostOps0 (W0 m ρ c) (Proc.devRef .tc main_arg4) = _
  simp only [hostOps0]
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  simp only [hostOps0]
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  simp only [hostOps0]
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  simp only [hostOps0]
  after_results_simp
theorem W1_arg8 (c : Dev nD) : W1 m ρ c (Proc.devRef .tc main_arg8) = m ((c : Thread nD τ).loc main_arg8) := by
  show StableHlo.after hostOps0 (W0 m ρ c) (Proc.devRef .tc main_arg8) = _
  simp only [hostOps0]
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  simp only [hostOps0]
  after_results_simp

/-! ### After the first launch: its output array holds the first layer, every other buffer what it held -/

theorem W2_v35 (c : Dev nD) : W2 m ρ c (Proc.devRef .tc main_v35)
    = layer1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W2_arr m ρ c 5).trans ?_
  rw [Region.final0 (V1 m ρ) c]
  show denseRelu (W1 m ρ c (Proc.devRef .tc main_v34)) (W1 m ρ c (Proc.devRef .tc main_v10)) (W1 m ρ c (Proc.devRef .tc main_arg4))
    (W1 m ρ c (Proc.devRef .tc main_arg5)) (W1 m ρ c (Proc.devRef .tc main_arg6)) = _
  rw [W1_v34, W1_v10, W1_arg4, W1_arg5, W1_arg6]
  rfl

theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_v18 (c : Dev nD) : W2 m ρ c (Proc.devRef .tc main_v18) = degInv (dst (m ((c : Thread nD τ).loc main_arg1))) :=
  (W2_of_ne m ρ c main_v18 (by decide)).trans (W1_v18 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

/-! ### After the second host stretch -/

theorem W3_v51 (c : Dev nD) : W3 m ρ c (Proc.devRef .tc main_v51)
    = agg (W2 m ρ c (Proc.devRef .tc main_v35)) (W2 m ρ c (Proc.devRef .tc main_v1)) (W2 m ρ c (Proc.devRef .tc main_v3))
        (W2 m ρ c (Proc.devRef .tc main_arg2)) (W2 m ρ c (Proc.devRef .tc main_v18)) := by
  show StableHlo.after hostOps1 (W2 m ρ c) (Proc.devRef .tc main_v51) = _
  simp only [hostOps1]
  after_results_simp
  rfl
theorem W3_v35 (c : Dev nD) : W3 m ρ c (Proc.devRef .tc main_v35) = W2 m ρ c (Proc.devRef .tc main_v35) := by
  show StableHlo.after hostOps1 (W2 m ρ c) (Proc.devRef .tc main_v35) = _
  simp only [hostOps1]
  after_results_simp
theorem W3_arg7 (c : Dev nD) : W3 m ρ c (Proc.devRef .tc main_arg7) = W2 m ρ c (Proc.devRef .tc main_arg7) := by
  show StableHlo.after hostOps1 (W2 m ρ c) (Proc.devRef .tc main_arg7) = _
  simp only [hostOps1]
  after_results_simp
theorem W3_arg8 (c : Dev nD) : W3 m ρ c (Proc.devRef .tc main_arg8) = W2 m ρ c (Proc.devRef .tc main_arg8) := by
  show StableHlo.after hostOps1 (W2 m ρ c) (Proc.devRef .tc main_arg8) = _
  simp only [hostOps1]
  after_results_simp
theorem W3_arg9 (c : Dev nD) : W3 m ρ c (Proc.devRef .tc main_arg9) = W2 m ρ c (Proc.devRef .tc main_arg9) := by
  show StableHlo.after hostOps1 (W2 m ρ c) (Proc.devRef .tc main_arg9) = _
  simp only [hostOps1]
  after_results_simp

/-! ### At the end: the second launch's output array holds the result -/

/-- THE RESULT BUFFER at the last boundary is `out` of the arguments' launch contents. -/
theorem W4_v52 (c : Dev nD) : W4 m ρ c (Proc.devRef .tc main_v52)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W4_arr m ρ c 5).trans ?_
  rw [Region.final1 (V3 m ρ) c]
  show dense (W3 m ρ c (Proc.devRef .tc main_v51)) (W3 m ρ c (Proc.devRef .tc main_v35)) (W3 m ρ c (Proc.devRef .tc main_arg7))
    (W3 m ρ c (Proc.devRef .tc main_arg8)) (W3 m ρ c (Proc.devRef .tc main_arg9)) = _
  rw [W3_v51, W3_v35, W3_arg7, W3_arg8, W3_arg9, W2_v35, W2_v1, W2_v3, W2_arg2, W2_v18, W2_arg7, W2_arg8, W2_arg9]
  rfl

end Cert.Sage.KValue

end
-- ==== Proof.RefDense.lean ====
/-
  The reference's two dense layers, read entry by entry.

  The reference forms each layer on the host from whole arrays: two contractions over the 256 input features
  (aggregated features times the neighbour weights, node features times the self weights), their sum, the bias laid
  along rows, and after the first layer the maximum with 0. Read at an entry through the generated index lemmas of the
  reference's run, the first is `denseRelu` and the second `dense` (Proof/Dense.lean) of the layer's inputs.
-/
import proofs.«120815_j5866925326494_1_alg».proof.Proof.Gen.ReferenceIdeal.Read
import proofs.«120815_j5866925326494_1_alg».proof.Proof.Dense

noncomputable section

namespace Cert.Sage.RefDense

open Cert.ReferenceIdeal Cert.ReferenceIdeal.Gen Cert.ReferenceIdeal.Read Cert.Sage
open Idealize.ShloMosaic Idealize.ShloMosaic.ValueIdx

/-! ## The generated index maps are the row and column of the entry -/

theorem lidx33 (i : S50000x256.Idx) (k : Fin 256) : lidx_main_v33 i k = ix2 (i 0) k :=
  funext fun a => by match a with | ⟨0, _⟩ => rfl | ⟨1, _⟩ => rfl
theorem ridx33 (i : S50000x256.Idx) (k : Fin 256) : ridx_main_v33 i k = ix2 k (i 1) :=
  funext fun a => by match a with | ⟨0, _⟩ => rfl | ⟨1, _⟩ => rfl
theorem lidx34 (i : S50000x256.Idx) (k : Fin 256) : lidx_main_v34 i k = ix2 (i 0) k :=
  funext fun a => by match a with | ⟨0, _⟩ => rfl | ⟨1, _⟩ => rfl
theorem ridx34 (i : S50000x256.Idx) (k : Fin 256) : ridx_main_v34 i k = ix2 k (i 1) :=
  funext fun a => by match a with | ⟨0, _⟩ => rfl | ⟨1, _⟩ => rfl
theorem bidx1 (i : S50000x256.Idx) : idx_main_v36 (idx_main_v37 i) = ix1 (i 1) :=
  funext fun a => by match a with | ⟨0, _⟩ => rfl

theorem lidx62 (i : S50000x128.Idx) (k : Fin 256) : lidx_main_v62 i k = ix2 (i 0) k :=
  funext fun a => by match a with | ⟨0, _⟩ => rfl | ⟨1, _⟩ => rfl
theorem ridx62 (i : S50000x128.Idx) (k : Fin 256) : ridx_main_v62 i k = ix2 k (i 1) :=
  funext fun a => by match a with | ⟨0, _⟩ => rfl | ⟨1, _⟩ => rfl
theorem lidx63 (i : S50000x128.Idx) (k : Fin 256) : lidx_main_v63 i k = ix2 (i 0) k :=
  funext fun a => by match a with | ⟨0, _⟩ => rfl | ⟨1, _⟩ => rfl
theorem ridx63 (i : S50000x128.Idx) (k : Fin 256) : ridx_main_v63 i k = ix2 k (i 1) :=
  funext fun a => by match a with | ⟨0, _⟩ => rfl | ⟨1, _⟩ => rfl
theorem bidx2 (i : S50000x128.Idx) : idx_main_v65 (idx_main_v66 i) = ix1 (i 1) :=
  funext fun a => by match a with | ⟨0, _⟩ => rfl

/-! ## The layers -/

/-- The reference's first layer is the activated dense layer of its mean-aggregated features and its node features. -/
theorem layer1_eq (x0 : (⟨S50000, .i32⟩ : BufTy).Contents (Elt Ideal)) (x1 : (⟨S2x800000, .i32⟩ : BufTy).Contents (Elt Ideal))
    (x2 : (⟨S800000, .f32⟩ : BufTy).Contents (Elt Ideal)) (x3 : (⟨S50000x256, .f32⟩ : BufTy).Contents (Elt Ideal))
    (x4 x5 : (⟨S256x256, .f32⟩ : BufTy).Contents (Elt Ideal)) (x6 : (⟨S256, .f32⟩ : BufTy).Contents (Elt Ideal)) :
    val_main_v39 (F := Ideal) x0 x1 x2 x3 x4 x5 x6
      = denseRelu (val_main_v32 (F := Ideal) x0 x1 x2 x3) (val_main_v10 (F := Ideal) x0 x3) x4 x5 x6 := by
  funext i
  rw [val_main_v39_apply, val_main_v38_apply, val_main_v35_apply, val_main_v33_apply, val_main_v34_apply, val_main_v37_apply,
    val_main_v36_apply, val_main_call0_v0_apply, val_main_call0_cst_apply]
  simp only [lidx33, ridx33, lidx34, ridx34, bidx1]
  show max _ (Ideal.ofBits .f32 0x00000000#32) = max _ 0
  rw [Ideal.ofBits_zero_f32]
  rfl

/-- The reference's second layer is the dense layer of its mean-aggregated first-layer output and that output. -/
theorem layer2_eq (x0 : (⟨S50000, .i32⟩ : BufTy).Contents (Elt Ideal)) (x1 : (⟨S2x800000, .i32⟩ : BufTy).Contents (Elt Ideal))
    (x2 : (⟨S800000, .f32⟩ : BufTy).Contents (Elt Ideal)) (x3 : (⟨S50000x256, .f32⟩ : BufTy).Contents (Elt Ideal))
    (x4 x5 : (⟨S256x256, .f32⟩ : BufTy).Contents (Elt Ideal)) (x6 : (⟨S256, .f32⟩ : BufTy).Contents (Elt Ideal))
    (x7 x8 : (⟨S256x128, .f32⟩ : BufTy).Contents (Elt Ideal)) (x9 : (⟨S128, .f32⟩ : BufTy).Contents (Elt Ideal)) :
    val_main_v67 (F := Ideal) x0 x1 x2 x3 x4 x5 x6 x7 x8 x9
      = dense (val_main_v61 (F := Ideal) x0 x1 x2 x3 x4 x5 x6) (val_main_v39 (F := Ideal) x0 x1 x2 x3 x4 x5 x6) x7 x8 x9 := by
  funext i
  rw [val_main_v67_apply, val_main_v64_apply, val_main_v62_apply, val_main_v63_apply, val_main_v66_apply, val_main_v65_apply]
  simp only [lidx62, ridx62, lidx63, ridx63, bidx2]
  rfl

end Cert.Sage.RefDense

end
-- ==== Proof.MeanScale.lean ====
/-
  Mean aggregation: scaling by the reciprocal of the clamped in-degree IS dividing by the clamped in-degree.

  The in-degree `cnt` of a node is clamped below at 1, so the divisor `max cnt 1` is never 0; off 0 the exact
  quotient is the product with the inverse (Proof/Dense.lean `mul_recip_eq_div`). One program forms the per-node
  factor `1 / max cnt 1` first, lays it along the feature axis ([N] → [N, 1] → [N, D]) and multiplies the summed
  messages by it; the other lays `max cnt 1` along the feature axis and divides the summed messages by it. Entry
  by entry both are `S (p, f) / max (cnt p) 1`. Nothing is assumed of `S` or `cnt`: the law holds at the infinities too.
-/
import proofs.«120815_j5866925326494_1_alg».proof.Proof.Dense
import Idealize.ShloMosaic.Lib.Pipeline.Value

noncomputable section

namespace Cert.Sage

open Idealize.ShloMosaic Idealize.ShloMosaic.ValueIdx

variable {N D : Nat}

/-- A per-node array laid along the feature axis, [N] → [N, 1] → [N, D], reads at (p, f) the node's entry. -/
theorem rowBroadcast_apply {α : Type} (hN : N ≠ 1)
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2))
    (x : (⟨1, ![N]⟩ : Shape).Idx → α) (i : (⟨2, ![N, D]⟩ : Shape).Idx) :
    broadcastInDim (⟨2, ![N, D]⟩ : Shape) ![0, 1] h2 (broadcastInDim (⟨2, ![N, 1]⟩ : Shape) ![0] h1 x) i = x (ix1 (i 0)) :=
  (broadcastInDim_apply _ h2 _ i (ix2 (i 0) (0 : Fin 1)) (fun a => match a with
    | ⟨0, _⟩ => by show (i 0).val = if N = 1 then 0 else (i 0).val; rw [if_neg hN]
    | ⟨1, _⟩ => by show 0 = if (1 : Nat) = 1 then 0 else (i 1).val; rw [if_pos rfl])).trans
  (broadcastInDim_apply _ h1 x _ (ix1 (i 0)) (fun a => match a with
    | ⟨0, _⟩ => by show (i 0).val = if N = 1 then 0 else (i 0).val; rw [if_neg hN]))

/-- The float word of 1.0 is the number 1. -/
theorem ofBits_one_f32 : Ideal.ofBits .f32 0x3F800000#32 = 1 := by
  simp [Ideal.ofBits, Ideal.ieee, -EReal.coe_mul]; norm_num

/-- THE LAW. Summed messages `S` times the per-node reciprocal factor, laid along features, equal `S` divided by the
    per-node clamped degree, laid along features. -/
theorem scale_recip_eq_div (hN : N ≠ 1)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2))
    (S : FVec Ideal ⟨2, ![N, D]⟩ .f32) (cnt : FVec Ideal ⟨1, ![N]⟩ .f32) :
    mulf S (broadcastInDim (⟨2, ![N, D]⟩ : Shape) ![0, 1] h2 (broadcastInDim (⟨2, ![N, 1]⟩ : Shape) ![0] h1
      (Host.divf (broadcastInDim (⟨1, ![N]⟩ : Shape) ![] h0 (constant (F := Ideal) ⟨0, ![]⟩ .f32 0x3F800000#32))
        (maximumf cnt (broadcastInDim (⟨1, ![N]⟩ : Shape) ![] h0 (constant (F := Ideal) ⟨0, ![]⟩ .f32 0x3F800000#32))))))
    = Host.divf S (broadcastInDim (⟨2, ![N, D]⟩ : Shape) ![0, 1] h2 (broadcastInDim (⟨2, ![N, 1]⟩ : Shape) ![0] h1
        (maximumf cnt (broadcastInDim (⟨1, ![N]⟩ : Shape) ![] h0 (constant (F := Ideal) ⟨0, ![]⟩ .f32 0x3F800000#32))))) := by
  funext i
  have hone : ∀ j : (⟨1, ![N]⟩ : Shape).Idx,
      broadcastInDim (⟨1, ![N]⟩ : Shape) ![] h0 (constant (F := Ideal) ⟨0, ![]⟩ .f32 0x3F800000#32) j = (1 : EReal) := fun j =>
    (broadcastInDim_apply _ h0 _ j ix0 (fun a => a.elim0)).trans ofBits_one_f32
  show S i * _ = Ideal.div (S i) _
  rw [rowBroadcast_apply hN h1 h2, rowBroadcast_apply hN h1 h2]
  show S i * Ideal.div (broadcastInDim (⟨1, ![N]⟩ : Shape) ![] h0 (constant (F := Ideal) ⟨0, ![]⟩ .f32 0x3F800000#32) (ix1 (i 0)))
      (max (cnt (ix1 (i 0))) (broadcastInDim (⟨1, ![N]⟩ : Shape) ![] h0 (constant (F := Ideal) ⟨0, ![]⟩ .f32 0x3F800000#32) (ix1 (i 0))))
    = Ideal.div (S i) (max (cnt (ix1 (i 0))) (broadcastInDim (⟨1, ![N]⟩ : Shape) ![] h0 (constant (F := Ideal) ⟨0, ![]⟩ .f32 0x3F800000#32) (ix1 (i 0))))
  rw [hone]
  exact mul_recip_eq_div _ _ (le_max_right _ _)

end Cert.Sage

end
-- ==== Proof.Bridge.lean ====
/-
  The reference's result is the kernel's result, as functions of the arguments.

  Both programs look the node features up the same way, form the same weighted message sums at the same
  destinations and count the same in-degrees; these stages are the same operations of the same arguments, whichever
  program spells them. They differ in ONE step, taken once per layer: the kernel's host code multiplies the message sums by
  the per-node factor 1 / max(in-degree, 1), the reference divides them by max(in-degree, 1) — equal by
  Proof/MeanScale.lean. The dense layers on top are `denseRelu` and `dense` on both sides (Proof/RefDense.lean for the
  reference; Proof/RegionValue.lean, inside Proof/KernelValue.lean's `out`, for the kernel).
-/
import proofs.«120815_j5866925326494_1_alg».proof.Proof.KernelValue
import proofs.«120815_j5866925326494_1_alg».proof.Proof.RefDense
import proofs.«120815_j5866925326494_1_alg».proof.Proof.MeanScale

set_option maxRecDepth 16384

noncomputable section

namespace Cert.Sage.Bridge

open Cert.ReferenceIdeal.Read Cert.Sage Cert.Sage.KValue
open Idealize.ShloMosaic

/-- The node features are one lookup, spelt alike. -/
theorem feat_eq (x0 : (⟨Cert.KernelIdeal.S50000, .i32⟩ : BufTy).Contents (Elt Ideal)) (x3 : (⟨Cert.KernelIdeal.S50000x256, .f32⟩ : BufTy).Contents (Elt Ideal)) :
    val_main_v10 (F := Ideal) x0 x3 = feat x0 x3 := rfl

/-- First layer: the reference's mean aggregate is the kernel's. -/
theorem agg1_eq (x0 : (⟨Cert.KernelIdeal.S50000, .i32⟩ : BufTy).Contents (Elt Ideal)) (x1 : (⟨Cert.KernelIdeal.S2x800000, .i32⟩ : BufTy).Contents (Elt Ideal)) (x2 : (⟨Cert.KernelIdeal.S800000, .f32⟩ : BufTy).Contents (Elt Ideal)) (x3 : (⟨Cert.KernelIdeal.S50000x256, .f32⟩ : BufTy).Contents (Elt Ideal)) :
    val_main_v32 (F := Ideal) x0 x1 x2 x3 = agg (val_main_v10 (F := Ideal) x0 x3) (src x1) (dst x1) x2 (degInv (dst x1)) := by
  unfold agg degInv
  refine Eq.trans ?_ (scale_recip_eq_div (N := 50000) (D := 256) (by decide) Cert.KernelIdeal.Gen.bcast_S_S50000
    Cert.KernelIdeal.Gen.bcast_S50000_S50000x1_0 Cert.KernelIdeal.Gen.bcast_S50000x1_S50000x256_0_1
    (msgSum (val_main_v10 (F := Ideal) x0 x3) (src x1) (dst x1) x2) (deg (dst x1))).symm
  rfl

/-- Second layer: the same, over the first layer's output. -/
theorem agg2_eq (x0 : (⟨Cert.KernelIdeal.S50000, .i32⟩ : BufTy).Contents (Elt Ideal)) (x1 : (⟨Cert.KernelIdeal.S2x800000, .i32⟩ : BufTy).Contents (Elt Ideal)) (x2 : (⟨Cert.KernelIdeal.S800000, .f32⟩ : BufTy).Contents (Elt Ideal)) (x3 : (⟨Cert.KernelIdeal.S50000x256, .f32⟩ : BufTy).Contents (Elt Ideal)) (x4 x5 : (⟨Cert.KernelIdeal.S256x256, .f32⟩ : BufTy).Contents (Elt Ideal)) (x6 : (⟨Cert.KernelIdeal.S256, .f32⟩ : BufTy).Contents (Elt Ideal)) :
    val_main_v61 (F := Ideal) x0 x1 x2 x3 x4 x5 x6
      = agg (val_main_v39 (F := Ideal) x0 x1 x2 x3 x4 x5 x6) (src x1) (dst x1) x2 (degInv (dst x1)) := by
  unfold agg degInv
  refine Eq.trans ?_ (scale_recip_eq_div (N := 50000) (D := 256) (by decide) Cert.KernelIdeal.Gen.bcast_S_S50000
    Cert.KernelIdeal.Gen.bcast_S50000_S50000x1_0 Cert.KernelIdeal.Gen.bcast_S50000x1_S50000x256_0_1
    (msgSum (val_main_v39 (F := Ideal) x0 x1 x2 x3 x4 x5 x6) (src x1) (dst x1) x2) (deg (dst x1))).symm
  rfl

/-- THE TWO RESULTS ARE ONE FUNCTION of the ten arguments. -/
theorem ref_eq_out (x0 : (⟨Cert.KernelIdeal.S50000, .i32⟩ : BufTy).Contents (Elt Ideal)) (x1 : (⟨Cert.KernelIdeal.S2x800000, .i32⟩ : BufTy).Contents (Elt Ideal)) (x2 : (⟨Cert.KernelIdeal.S800000, .f32⟩ : BufTy).Contents (Elt Ideal)) (x3 : (⟨Cert.KernelIdeal.S50000x256, .f32⟩ : BufTy).Contents (Elt Ideal)) (x4 x5 : (⟨Cert.KernelIdeal.S256x256, .f32⟩ : BufTy).Contents (Elt Ideal)) (x6 : (⟨Cert.KernelIdeal.S256, .f32⟩ : BufTy).Contents (Elt Ideal)) (x7 x8 : (⟨Cert.KernelIdeal.S256x128, .f32⟩ : BufTy).Contents (Elt Ideal)) (x9 : (⟨Cert.KernelIdeal.S128, .f32⟩ : BufTy).Contents (Elt Ideal)) :
    val_main_v67 (F := Ideal) x0 x1 x2 x3 x4 x5 x6 x7 x8 x9 = out x0 x1 x2 x3 x4 x5 x6 x7 x8 x9 := by
  rw [RefDense.layer2_eq, agg2_eq, RefDense.layer1_eq, agg1_eq, feat_eq]
  rfl

end Cert.Sage.Bridge

end
-- ==== Proof.lean ====
/-
  Two layers of a mean-aggregating graph convolution (lookup of node features; per layer: gather at the edges'
  sources, scale by the edge weights, scatter-add at the destinations, normalize by the clamped in-degree, then the dense
  transform agg·W_l + x·W_r + b; the maximum with 0 after the first layer), computed two ways.

  THE KERNEL keeps the sparse part on the host and runs each dense transform as a launch over 25 blocks of 2000 rows;
  its host code normalizes by MULTIPLYING with 1 / max(in-degree, 1). THE REFERENCE is host operations throughout and
  normalizes by DIVIDING by max(in-degree, 1). On the extended reals the two results are one function of the arguments:
    * a launch's output array is the dense layer of the whole input arrays (Proof/KernelPayload.lean: what a block
      computes; Proof/RegionValue.lean: the 25 row blocks tile the array; Proof/Dense.lean: the layer, and that a row of
      it reads one row of its inputs);
    * the kernel's run ends with its result buffer at the last boundary's contents (Proof/KernelRun.lean), which read
      back through the two host stretches and the two launches is `out` of the arguments (Proof/KernelValue.lean);
    * the reference's layers are the same dense layers (Proof/RefDense.lean), and dividing by a number that is at
      least 1 is multiplying by its reciprocal, at the infinities too (Proof/MeanScale.lean), so the reference's result is
      `out` of the arguments as well (Proof/Bridge.lean).
  No finiteness of the inputs is used: the one law needed holds at every extended real.

  The three frame claims: the two kernels' by their frame proofs (Proof/GenP), the reference's by its run with the result
  dropped. The idealization rewrote nothing, so `preserves` has nothing to state.
-/
import proofs.«120815_j5866925326494_1_alg».proof.Defs
import proofs.«120815_j5866925326494_1_alg».proof.Proof.Gen.Kernel
import proofs.«120815_j5866925326494_1_alg».proof.Proof.Gen.KernelIdeal
import proofs.«120815_j5866925326494_1_alg».proof.Proof.Gen.ReferenceIdeal
import proofs.«120815_j5866925326494_1_alg».proof.Proof.Gen.Pre_finite_inputs
import proofs.«120815_j5866925326494_1_alg».proof.Proof.Gen.ReferenceIdeal.Run
import proofs.«120815_j5866925326494_1_alg».proof.Proof.Gen.ReferenceIdeal.Read
import proofs.«120815_j5866925326494_1_alg».proof.Proof.GenP.Kernel.Frame
import proofs.«120815_j5866925326494_1_alg».proof.Proof.GenP.KernelIdeal.Frame
import proofs.«120815_j5866925326494_1_alg».proof.Proof.KernelRun
import proofs.«120815_j5866925326494_1_alg».proof.Proof.KernelValue
import proofs.«120815_j5866925326494_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: `out` of the arguments' launch contents. -/
theorem algebraic : Cert.algebraic_KernelIdeal_ReferenceIdeal := by
  intro m ρ m' ρ' _ hagree
  refine ⟨fun c => Cert.Sage.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨((h c).1).trans (Cert.Sage.KValue.W4_v52 m ρ c), (h c).2⟩) (Cert.Sage.KRun.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v67_eq, e0, e1, e2, e3, e4, e5, e6, e7, e8, e9]
    exact Cert.Sage.Bridge.ref_eq_out _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
